-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x4 : Shape := ⟨2, ![8388608, 4]⟩
abbrev S_ : Shape := ⟨0, ![]⟩

class Facts : Prop where
  bcast_S_S8388608x4 : S_.BroadcastsInDim S8388608x4 (![] : Fin 0 → Fin S8388608x4.rank)
  reducesTo_S8388608x4_S_d0_1 : S8388608x4.ReducesTo [0, 1] S_
  h_S_ : 0 < S_.numel

variable [Facts]

def fn {F : FTy → Type} [FloatOps F] (main_arg0 : FVec F S8388608x4 .f32) (main_arg1 : FVec F S8388608x4 .f32) : IVec S_ 1 :=
  let main_v0 : FVec F S8388608x4 .f32 := Host.absf main_arg0
  let main_cst : FVec F S_ .f32 := constant S_ .f32 0x7F800000#32
  let main_v1 : FVec F S8388608x4 .f32 := broadcastInDim S8388608x4 ![] bcast_S_S8388608x4 main_cst
  let main_v2 : IVec S8388608x4 1 := cmpf .olt main_v0 main_v1
  let main_c : IVec S_ 1 := constantI S_ 1 1#1
  let main_v3 : IVec S_ 1 := (fun x v => Host.reduce IntOp.andi x v reducesTo_S8388608x4_S_d0_1 h_S_) main_v2 main_c
  let main_v4 : FVec F S8388608x4 .f32 := Host.absf main_arg1
  let main_cst_0 : FVec F S_ .f32 := constant S_ .f32 0x7F800000#32
  let main_v5 : FVec F S8388608x4 .f32 := broadcastInDim S8388608x4 ![] bcast_S_S8388608x4 main_cst_0
  let main_v6 : IVec S8388608x4 1 := cmpf .olt main_v4 main_v5
  let main_c_1 : IVec S_ 1 := constantI S_ 1 1#1
  let main_v7 : IVec S_ 1 := (fun x v => Host.reduce IntOp.andi x v reducesTo_S8388608x4_S_d0_1 h_S_) main_v6 main_c_1
  let main_v8 : IVec S_ 1 := andi main_v3 main_v7
  main_v8
-- ==== Kernel.lean ====
abbrev S8388608x4 : Shape := ⟨2, ![8388608, 4]⟩
abbrev S1024x4 : Shape := ⟨2, ![1024, 4]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | .hbm, ⟨2, _⟩ => ⟨S8388608x4, .f32⟩
  | .local _ .vmem, ⟨0, _⟩ => ⟨S1024x4, .f32⟩
  | .local _ .vmem, ⟨1, _⟩ => ⟨S1024x4, .f32⟩
  | .local _ .vmem, ⟨2, _⟩ => ⟨S1024x4, .f32⟩
  | .local _ .vmem, ⟨3, _⟩ => ⟨S1024x4, .f32⟩
  | .local _ .vmem, ⟨4, _⟩ => ⟨S1024x4, .f32⟩
  | .local _ .vmem, ⟨5, _⟩ => ⟨S1024x4, .f32⟩
  | _, _ => ⟨S8388608x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8192], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x4_S1024x4_0_0 : ∀ a, (![0, 0] : Fin 2 → Nat) a + S1024x4.size a ≤ S1024x4.size a
  h_S1024x4 : 0 < S1024x4.numel
  slices_S1024x4_o0_0_S1024x1 : S1024x4.Slices ![0, 0] S1024x1
  slices_S1024x4_o0_1_S1024x1 : S1024x4.Slices ![0, 1] S1024x1
  slices_S1024x4_o0_2_S1024x1 : S1024x4.Slices ![0, 2] S1024x1
  slices_S1024x4_o0_3_S1024x1 : S1024x4.Slices ![0, 3] S1024x1
  concatenates_S1024x1_S1024x1_S1024x1_S1024x1_S1024x4_d1 : Shape.Concatenates [S1024x1, S1024x1, S1024x1, S1024x1] S1024x4 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4.size a ≤ S8388608x4.size a
  hwx0_0 : ∀ i : grid0.Coords, EltTy.bits .f32 = 32 ∨ (Rect.block (s := S8388608x4) S1024x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4.size a ≤ S8388608x4.size a
  hwx0_1 : ∀ i : grid0.Coords, EltTy.bits .f32 = 32 ∨ (Rect.block (s := S8388608x4) S1024x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4.size a ≤ S8388608x4.size a
  hwx0_2 : ∀ i : grid0.Coords, EltTy.bits .f32 = 32 ∨ (Rect.block (s := S8388608x4) S1024x4.size (cc0_transform_2 i) (hinb0_2 i)).WholeWords (EltTy.packing .f32)

variable [Facts₀]

abbrev win0_0 : Pipeline.Window sig grid0 :=
  Pipeline.Window.ofSpec (Memref.whole main_arg0) S1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x4.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608x4 : Shape := ⟨2, ![8388608, 4]⟩
abbrev S8388608x1 : Shape := ⟨2, ![8388608, 1]⟩
abbrev S8388608 : Shape := ⟨1, ![8388608]⟩

abbrev nBuf : Space → Nat
  | .hbm => 51
  | .vmem => 0
  | .smem => 0
  | _ => 0

abbrev bufTy : (tb : Table) → Fin (tcTables nBuf tb) → BufTy
  | .hbm, ⟨0, _⟩ => ⟨S8388608x4, .f32⟩
  | .hbm, ⟨1, _⟩ => ⟨S8388608x4, .f32⟩
  | .hbm, ⟨2, _⟩ => ⟨S8388608x1, .f32⟩
  | .hbm, ⟨3, _⟩ => ⟨S8388608, .f32⟩
  | .hbm, ⟨4, _⟩ => ⟨S8388608x1, .f32⟩
  | .hbm, ⟨5, _⟩ => ⟨S8388608, .f32⟩
  | .hbm, ⟨6, _⟩ => ⟨S8388608x1, .f32⟩
  | .hbm, ⟨7, _⟩ => ⟨S8388608, .f32⟩
  | .hbm, ⟨8, _⟩ => ⟨S8388608x1, .f32⟩
  | .hbm, ⟨9, _⟩ => ⟨S8388608, .f32⟩
  | .hbm, ⟨10, _⟩ => ⟨S8388608x1, .f32⟩
  | .hbm, ⟨11, _⟩ => ⟨S8388608, .f32⟩
  | .hbm, ⟨12, _⟩ => ⟨S8388608x1, .f32⟩
  | .hbm, ⟨13, _⟩ => ⟨S8388608, .f32⟩
  | .hbm, ⟨14, _⟩ => ⟨S8388608x1, .f32⟩
  | .hbm, ⟨15, _⟩ => ⟨S8388608, .f32⟩
  | .hbm, ⟨16, _⟩ => ⟨S8388608x1, .f32⟩
  | .hbm, ⟨17, _⟩ => ⟨S8388608, .f32⟩
  | .hbm, ⟨18, _⟩ => ⟨S8388608, .f32⟩
  | .hbm, ⟨19, _⟩ => ⟨S8388608, .f32⟩
  | .hbm, ⟨20, _⟩ => ⟨S8388608, .f32⟩
  | .hbm, ⟨21, _⟩ => ⟨S8388608, .f32⟩
  | .hbm, ⟨22, _⟩ => ⟨S8388608, .f32⟩
  | .hbm, ⟨23, _⟩ => ⟨S8388608, .f32⟩
  | .hbm, ⟨24, _⟩ => ⟨S8388608, .f32⟩
  | .hbm, ⟨25, _⟩ => ⟨S8388608, .f32⟩
  | .hbm, ⟨26, _⟩ => ⟨S8388608, .f32⟩
  | .hbm, ⟨27, _⟩ => ⟨S8388608, .f32⟩
  | .hbm, ⟨28, _⟩ => ⟨S8388608, .f32⟩
  | .hbm, ⟨29, _⟩ => ⟨S8388608, .f32⟩
  | .hbm, ⟨30, _⟩ => ⟨S8388608, .f32⟩
  | .hbm, ⟨31, _⟩ => ⟨S8388608, .f32⟩
  | .hbm, ⟨32, _⟩ => ⟨S8388608, .f32⟩
  | .hbm, ⟨33, _⟩ => ⟨S8388608, .f32⟩
  | .hbm, ⟨34, _⟩ => ⟨S8388608, .f32⟩
  | .hbm, ⟨35, _⟩ => ⟨S8388608, .f32⟩
  | .hbm, ⟨36, _⟩ => ⟨S8388608, .f32⟩
  | .hbm, ⟨37, _⟩ => ⟨S8388608, .f32⟩
  | .hbm, ⟨38, _⟩ => ⟨S8388608, .f32⟩
  | .hbm, ⟨39, _⟩ => ⟨S8388608, .f32⟩
  | .hbm, ⟨40, _⟩ => ⟨S8388608, .f32⟩
  | .hbm, ⟨41, _⟩ => ⟨S8388608, .f32⟩
  | .hbm, ⟨42, _⟩ => ⟨S8388608, .f32⟩
  | .hbm, ⟨43, _⟩ => ⟨S8388608, .f32⟩
  | .hbm, ⟨44, _⟩ => ⟨S8388608, .f32⟩
  | .hbm, ⟨45, _⟩ => ⟨S8388608, .f32⟩
  | .hbm, ⟨46, _⟩ => ⟨S8388608x1, .f32⟩
  | .hbm, ⟨47, _⟩ => ⟨S8388608x1, .f32⟩
  | .hbm, ⟨48, _⟩ => ⟨S8388608x1, .f32⟩
  | .hbm, ⟨49, _⟩ => ⟨S8388608x1, .f32⟩
  | .hbm, ⟨50, _⟩ => ⟨S8388608x4, .f32⟩
  | _, _ => ⟨S8388608x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩

abbrev nD : Nat := 1
abbrev τ : Topo := Topo.v7x

variable {F : FTy → Type} [FloatOps F]

class Facts₀ : Prop where
  slices_S8388608x4_S8388608x1_0_0 : S8388608x4.Slices ![0, 0] S8388608x1
  shapeCasts_S8388608x1_S8388608 : S8388608x1.ShapeCasts S8388608
  slices_S8388608x4_S8388608x1_0_1 : S8388608x4.Slices ![0, 1] S8388608x1
  slices_S8388608x4_S8388608x1_0_2 : S8388608x4.Slices ![0, 2] S8388608x1
  slices_S8388608x4_S8388608x1_0_3 : S8388608x4.Slices ![0, 3] S8388608x1
  bcast_S8388608_S8388608x1_0 : S8388608.BroadcastsInDim S8388608x1 (![0] : Fin 1 → Fin S8388608x1.rank)
  concatenates_S8388608x1_S8388608x1_S8388608x1_S8388608x1_S8388608x4_d1 : Shape.Concatenates [S8388608x1, S8388608x1, S8388608x1, S8388608x1] S8388608x4 1

variable [Facts₀]

class Facts : Prop extends Facts₀ where

variable [Facts]
-- ==== Proof.Quaternion.lean ====
/-
  The Hamilton product of quaternions, row by row.

  A quaternion is a row of four numbers (w, i, j, k). For quaternions a = (a₀, a₁, a₂, a₃) and b = (b₀, b₁, b₂, b₃)
  the Hamilton product a * b has the components
    c₀ = a₀b₀ − a₁b₁ − a₂b₂ − a₃b₃
    c₁ = a₁b₀ + a₀b₁ − a₃b₂ + a₂b₃
    c₂ = a₂b₀ + a₃b₁ + a₀b₂ − a₁b₃
    c₃ = a₃b₀ − a₂b₁ + a₁b₂ + a₀b₃
  each sum grouped from the left, as written. This file fixes that grouping once, for any float instance, and
  states the product of two arrays of 8388608 quaternions as one function of the arrays, index by index: entry
  (r, n) of the result is component n of the product of row r of the first array with row r of the second.
  Both programs of this certificate compute exactly this term, so no law of arithmetic is used anywhere.
-/
import Idealize.ShloMosaic.PureOps
import Idealize.ShloMosaic.Lib.ValueIdx

noncomputable section

namespace Cert.Quaternion

open Idealize.ShloMosaic Idealize.ShloMosaic.ValueIdx

variable {F : FTy → Type} [FloatOps F]

/-- The shape of an array of 8388608 quaternions: one per row, the four components along the columns. -/
abbrev Quats : Shape := ⟨2, ![8388608, 4]⟩

/-- Component `n` of the Hamilton product of the quaternions `a` and `b`, the sums grouped from the left. -/
def comp (a b : Fin 4 → F .f32) : Fin 4 → F .f32 := fun n => match n with
  | ⟨0, _⟩ => FloatOps.subf (FloatOps.subf (FloatOps.subf (FloatOps.mulf (a 0) (b 0)) (FloatOps.mulf (a 1) (b 1))) (FloatOps.mulf (a 2) (b 2))) (FloatOps.mulf (a 3) (b 3))
  | ⟨1, _⟩ => FloatOps.addf (FloatOps.subf (FloatOps.addf (FloatOps.mulf (a 1) (b 0)) (FloatOps.mulf (a 0) (b 1))) (FloatOps.mulf (a 3) (b 2))) (FloatOps.mulf (a 2) (b 3))
  | ⟨2, _⟩ => FloatOps.subf (FloatOps.addf (FloatOps.addf (FloatOps.mulf (a 2) (b 0)) (FloatOps.mulf (a 3) (b 1))) (FloatOps.mulf (a 0) (b 2))) (FloatOps.mulf (a 1) (b 3))
  | ⟨3, _⟩ => FloatOps.addf (FloatOps.addf (FloatOps.subf (FloatOps.mulf (a 3) (b 0)) (FloatOps.mulf (a 2) (b 1))) (FloatOps.mulf (a 1) (b 2))) (FloatOps.mulf (a 0) (b 3))

/-- Row `r` of an array of quaternions, as a quaternion. -/
def row (q : Quats.Idx → F .f32) (r : Fin 8388608) : Fin 4 → F .f32 := fun n => q (ix2 r n)

/-- The row-wise Hamilton product of two arrays of quaternions: entry `(r, n)` is component `n` of
    `row q r * row x r`. -/
def prod (q x : Quats.Idx → F .f32) : Quats.Idx → F .f32 :=
  fun i => comp (row q (i 0)) (row x (i 0)) (i 1)

/-- The product at an index given by its coordinates. -/
theorem prod_ix2 (q x : Quats.Idx → F .f32) (r : Fin 8388608) (n : Fin 4) :
    prod q x (ix2 r n) = comp (row q r) (row x r) n := rfl

end Cert.Quaternion

end
-- ==== Proof.Reference.lean ====
/-
  The reference program computes the row-wise Hamilton product.

  The reference slices each argument array into its four columns (as flat vectors of length 8388608), forms the
  four components of the product column by column with the same grouping as `Quaternion.comp`, re-shapes each
  component into a column `[8388608, 1]` and joins the four columns along the second axis. Read at an index
  `(r, n)`: the joined array takes its element from column `n` at row `r`; that column is component `n` computed from
  the flat vectors at `r`; and flat vector `k` of an argument at `r` is the argument's entry `(r, k)`.
-/
import proofs.«176889_j19670950216617_2_alg».proof.Proof.Gen.ReferenceIdeal.Read
import proofs.«176889_j19670950216617_2_alg».proof.Proof.Quaternion
import Idealize.ShloMosaic.Lib.ValueIdx
import Idealize.ShloMosaic.Lib.Pipeline.Value

noncomputable section

namespace Cert.ReferenceIdeal.Hamilton

open Cert.ReferenceIdeal Cert.ReferenceIdeal.Read Idealize.ShloMosaic Idealize.ShloMosaic.ValueIdx Cert.Quaternion

variable {F : FTy → Type} [FloatOps F]
variable (x0 x1 : S8388608x4.Idx → F .f32)

/-! ## A column of an argument, flattened, read at a row -/

/-- Flattening a column `[8388608, 1]` reads row `r` at `(r, 0)`, -/
theorem flat_idx (r : Fin 8388608) : idx_main_v1 (ix1 r) = ix2 r (0 : Fin 1) :=
  funext fun a => Fin.ext (by match a with | ⟨0, _⟩ => show r.val / 1 = r.val; omega | ⟨1, _⟩ => rfl)

/-- and the slice of column `k` of an argument reads `(r, 0)` at `(r, k)`. -/
theorem slice0_idx (r : Fin 8388608) : idx_main_v0 (ix2 r (0 : Fin 1)) = ix2 r (0 : Fin 4) :=
  funext fun a => Fin.ext (by match a with | ⟨0, _⟩ => rfl | ⟨1, _⟩ => rfl)
theorem slice1_idx (r : Fin 8388608) : idx_main_v2 (ix2 r (0 : Fin 1)) = ix2 r (1 : Fin 4) :=
  funext fun a => Fin.ext (by match a with | ⟨0, _⟩ => rfl | ⟨1, _⟩ => rfl)
theorem slice2_idx (r : Fin 8388608) : idx_main_v4 (ix2 r (0 : Fin 1)) = ix2 r (2 : Fin 4) :=
  funext fun a => Fin.ext (by match a with | ⟨0, _⟩ => rfl | ⟨1, _⟩ => rfl)
theorem slice3_idx (r : Fin 8388608) : idx_main_v6 (ix2 r (0 : Fin 1)) = ix2 r (3 : Fin 4) :=
  funext fun a => Fin.ext (by match a with | ⟨0, _⟩ => rfl | ⟨1, _⟩ => rfl)

/-- The four flattened columns of the first argument at row `r` are its row `r`. -/
theorem q0 (r : Fin 8388608) : val_main_v1 (F := F) x0 (ix1 r) = row x0 r 0 := by
  rw [val_main_v1_apply, val_main_v0_apply, flat_idx, slice0_idx]; rfl
theorem q1 (r : Fin 8388608) : val_main_v3 (F := F) x0 (ix1 r) = row x0 r 1 := by
  rw [val_main_v3_apply, val_main_v2_apply]; show x0 (idx_main_v2 (idx_main_v1 (ix1 r))) = _; rw [flat_idx, slice1_idx]; rfl
theorem q2 (r : Fin 8388608) : val_main_v5 (F := F) x0 (ix1 r) = row x0 r 2 := by
  rw [val_main_v5_apply, val_main_v4_apply]; show x0 (idx_main_v4 (idx_main_v1 (ix1 r))) = _; rw [flat_idx, slice2_idx]; rfl
theorem q3 (r : Fin 8388608) : val_main_v7 (F := F) x0 (ix1 r) = row x0 r 3 := by
  rw [val_main_v7_apply, val_main_v6_apply]; show x0 (idx_main_v6 (idx_main_v1 (ix1 r))) = _; rw [flat_idx, slice3_idx]; rfl

/-- The four flattened columns of the second argument at row `r` are its row `r`. -/
theorem p0 (r : Fin 8388608) : val_main_v9 (F := F) x1 (ix1 r) = row x1 r 0 := by
  rw [val_main_v9_apply, val_main_v8_apply]; show x1 (idx_main_v0 (idx_main_v1 (ix1 r))) = _; rw [flat_idx, slice0_idx]; rfl
theorem p1 (r : Fin 8388608) : val_main_v11 (F := F) x1 (ix1 r) = row x1 r 1 := by
  rw [val_main_v11_apply, val_main_v10_apply]; show x1 (idx_main_v2 (idx_main_v1 (ix1 r))) = _; rw [flat_idx, slice1_idx]; rfl
theorem p2 (r : Fin 8388608) : val_main_v13 (F := F) x1 (ix1 r) = row x1 r 2 := by
  rw [val_main_v13_apply, val_main_v12_apply]; show x1 (idx_main_v4 (idx_main_v1 (ix1 r))) = _; rw [flat_idx, slice2_idx]; rfl
theorem p3 (r : Fin 8388608) : val_main_v15 (F := F) x1 (ix1 r) = row x1 r 3 := by
  rw [val_main_v15_apply, val_main_v14_apply]; show x1 (idx_main_v6 (idx_main_v1 (ix1 r))) = _; rw [flat_idx, slice3_idx]; rfl

/-! ## The four components, as flat vectors, read at a row -/

theorem c0 (r : Fin 8388608) : val_main_v22 (F := F) x0 x1 (ix1 r) = comp (row x0 r) (row x1 r) 0 := by
  simp only [val_main_v22_apply, val_main_v20_apply, val_main_v18_apply, val_main_v16_apply, val_main_v17_apply,
    val_main_v19_apply, val_main_v21_apply, q0, q1, q2, q3, p0, p1, p2, p3]
  rfl
theorem c1 (r : Fin 8388608) : val_main_v29 (F := F) x0 x1 (ix1 r) = comp (row x0 r) (row x1 r) 1 := by
  simp only [val_main_v29_apply, val_main_v27_apply, val_main_v25_apply, val_main_v23_apply, val_main_v24_apply,
    val_main_v26_apply, val_main_v28_apply, q0, q1, q2, q3, p0, p1, p2, p3]
  rfl
theorem c2 (r : Fin 8388608) : val_main_v36 (F := F) x0 x1 (ix1 r) = comp (row x0 r) (row x1 r) 2 := by
  simp only [val_main_v36_apply, val_main_v34_apply, val_main_v32_apply, val_main_v30_apply, val_main_v31_apply,
    val_main_v33_apply, val_main_v35_apply, q0, q1, q2, q3, p0, p1, p2, p3]
  rfl
theorem c3 (r : Fin 8388608) : val_main_v43 (F := F) x0 x1 (ix1 r) = comp (row x0 r) (row x1 r) 3 := by
  simp only [val_main_v43_apply, val_main_v41_apply, val_main_v39_apply, val_main_v37_apply, val_main_v38_apply,
    val_main_v40_apply, val_main_v42_apply, q0, q1, q2, q3, p0, p1, p2, p3]
  rfl

/-! ## The four columns and their join -/

/-- Re-shaping a flat vector into a column reads `(r, 0)` at `r`. -/
theorem column_idx (r : Fin 8388608) : idx_main_v44 (ix2 r (0 : Fin 1)) = ix1 r :=
  funext fun a => match a with | ⟨0, _⟩ => rfl

/-- The four columns the reference joins, by number. -/
def cols : Fin 4 → (S8388608x1.Idx → F .f32) := fun n => match n with
  | ⟨0, _⟩ => val_main_v44 (F := F) x0 x1
  | ⟨1, _⟩ => val_main_v45 (F := F) x0 x1
  | ⟨2, _⟩ => val_main_v46 (F := F) x0 x1
  | ⟨3, _⟩ => val_main_v47 (F := F) x0 x1

/-- Column `n` at row `r` is component `n` of the product of the two rows `r`. -/
theorem cols_apply (r : Fin 8388608) (n : Fin 4) : cols x0 x1 n (ix2 r (0 : Fin 1)) = comp (row x0 r) (row x1 r) n := by
  match n with
  | ⟨0, _⟩ => show val_main_v44 (F := F) x0 x1 (ix2 r (0 : Fin 1)) = _; rw [val_main_v44_apply, column_idx]; exact c0 x0 x1 r
  | ⟨1, _⟩ => show val_main_v45 (F := F) x0 x1 (ix2 r (0 : Fin 1)) = _; rw [val_main_v45_apply]; show val_main_v29 (F := F) x0 x1 (idx_main_v44 (ix2 r (0 : Fin 1))) = _; rw [column_idx]; exact c1 x0 x1 r
  | ⟨2, _⟩ => show val_main_v46 (F := F) x0 x1 (ix2 r (0 : Fin 1)) = _; rw [val_main_v46_apply]; show val_main_v36 (F := F) x0 x1 (idx_main_v44 (ix2 r (0 : Fin 1))) = _; rw [column_idx]; exact c2 x0 x1 r
  | ⟨3, _⟩ => show val_main_v47 (F := F) x0 x1 (ix2 r (0 : Fin 1)) = _; rw [val_main_v47_apply]; show val_main_v43 (F := F) x0 x1 (idx_main_v44 (ix2 r (0 : Fin 1))) = _; rw [column_idx]; exact c3 x0 x1 r

/-- THE REFERENCE'S RESULT is the row-wise Hamilton product of its arguments: the join of the four columns
    along the second axis takes entry `(r, n)` from column `n` at `(r, 0)`. -/
theorem result_eq_prod : val_main_v48 (F := F) x0 x1 = prod x0 x1 := by
  funext i
  obtain ⟨r, n, rfl⟩ : ∃ (r : Fin 8388608) (n : Fin 4), i = ix2 r n := ⟨i 0, i 1, eq_ix2 i⟩
  rw [prod_ix2, ← cols_apply x0 x1 r n]
  unfold val_main_v48
  show concatenate S8388608x4 1 (List.ofFn fun n : Fin 4 => (⟨S8388608x1, cols x0 x1 n⟩ : (s : Shape) × (s.Idx → _))) _ (ix2 r n) = _
  exact concatenate_ofFn_apply (t := S8388608x4) (s₁ := S8388608x1) (1 : Fin 2) (cols x0 x1) _ rfl 1 rfl (ix2 r n) n
    (by show n.val / 1 = n.val; omega) (ix2 r (0 : Fin 1)) (by show 0 = n.val % 1; omega)
    (fun b hb => by match b with | ⟨0, _⟩ => rfl | ⟨1, _⟩ => exact absurd rfl hb)

end Cert.ReferenceIdeal.Hamilton

end
-- ==== Proof.Block.lean ====
/-
  What the kernel leaves in an output block.

  At each grid point the kernel loads a block of 1024 quaternions from each argument, cuts each block into its
  four columns, forms the four components of the Hamilton product column by column — grouped as
  `Quaternion.comp` groups them — and joins the four result columns into the output block. The generated value
  leg already reads the join and says which column, and which row of it, a block index takes its element
  from; here the columns are read at that row: entry `(r, n)` of the output block is component `n` of the product
  of row `r` of the first block with row `r` of the second.
-/
import proofs.«176889_j19670950216617_2_alg».proof.Proof.Gen.KernelIdeal.Value
import proofs.«176889_j19670950216617_2_alg».proof.Proof.Quaternion
import Idealize.ShloMosaic.Lib.ValueIdx
import Idealize.ShloMosaic.Lib.Pipeline.Value

noncomputable section

namespace Cert.KernelIdeal.Hamilton

open Cert.KernelIdeal Cert.KernelIdeal.Gen Idealize.ShloMosaic Idealize.ShloMosaic.ValueIdx Cert.Quaternion

variable {F : FTy → Type} [FloatOps F]

/-- Row `r` of a block of 1024 quaternions, as a quaternion. -/
def brow (P : Vec F S1024x4 .f32) (r : Fin 1024) : Fin 4 → F .f32 := fun n => P (ix2 r n)

/-! ## A column of a block read at a row -/

theorem col0_at (P : Vec F S1024x4 .f32) (h : S1024x4.Slices ![0, 0] S1024x1) (r : Fin 1024) :
    extractStridedSlice S1024x1 ![0, 0] P h (ix2 r (0 : Fin 1)) = brow P r 0 :=
  extractStridedSlice_apply ![0, 0] P h (ix2 r (0 : Fin 1)) (ix2 r (0 : Fin 4)) (fun a => match a with
    | ⟨0, _⟩ => by show r.val = 0 + r.val; omega
    | ⟨1, _⟩ => by show 0 = 0 + 0; omega)
theorem col1_at (P : Vec F S1024x4 .f32) (h : S1024x4.Slices ![0, 1] S1024x1) (r : Fin 1024) :
    extractStridedSlice S1024x1 ![0, 1] P h (ix2 r (0 : Fin 1)) = brow P r 1 :=
  extractStridedSlice_apply ![0, 1] P h (ix2 r (0 : Fin 1)) (ix2 r (1 : Fin 4)) (fun a => match a with
    | ⟨0, _⟩ => by show r.val = 0 + r.val; omega
    | ⟨1, _⟩ => by show 1 = 1 + 0; omega)
theorem col2_at (P : Vec F S1024x4 .f32) (h : S1024x4.Slices ![0, 2] S1024x1) (r : Fin 1024) :
    extractStridedSlice S1024x1 ![0, 2] P h (ix2 r (0 : Fin 1)) = brow P r 2 :=
  extractStridedSlice_apply ![0, 2] P h (ix2 r (0 : Fin 1)) (ix2 r (2 : Fin 4)) (fun a => match a with
    | ⟨0, _⟩ => by show r.val = 0 + r.val; omega
    | ⟨1, _⟩ => by show 2 = 2 + 0; omega)
theorem col3_at (P : Vec F S1024x4 .f32) (h : S1024x4.Slices ![0, 3] S1024x1) (r : Fin 1024) :
    extractStridedSlice S1024x1 ![0, 3] P h (ix2 r (0 : Fin 1)) = brow P r 3 :=
  extractStridedSlice_apply ![0, 3] P h (ix2 r (0 : Fin 1)) (ix2 r (3 : Fin 4)) (fun a => match a with
    | ⟨0, _⟩ => by show r.val = 0 + r.val; omega
    | ⟨1, _⟩ => by show 3 = 3 + 0; omega)

/-! ## The pointwise operations read at an index -/

theorem mul_at {s : Shape} (a b : FVec F s .f32) (i : s.Idx) : mulf a b i = FloatOps.mulf (a i) (b i) := rfl
theorem add_at {s : Shape} (a b : FVec F s .f32) (i : s.Idx) : addf a b i = FloatOps.addf (a i) (b i) := rfl
theorem sub_at {s : Shape} (a b : FVec F s .f32) (i : s.Idx) : subf a b i = FloatOps.subf (a i) (b i) := rfl

/-! ## The output block -/

/-- The row of a result column that block index `(r, n)` reads is `(r, 0)`. -/
theorem row_of (r : Fin 1024) (n : Fin 4) : Value.ix2_0 (ix2 r n) = ix2 r (0 : Fin 1) :=
  funext fun a => match a with | ⟨0, _⟩ => rfl | ⟨1, _⟩ => rfl

/-- Result column `n` at row `r` is component `n` of the product of the two blocks' rows `r`. -/
theorem column_apply (P0 P1 : Vec F S1024x4 .f32) (r : Fin 1024) (n : Fin 4) :
    Value.Cat2_0 P0 P1 n (ix2 r (0 : Fin 1)) = comp (brow P0 r) (brow P1 r) n := by
  match n with
  | ⟨0, _⟩ =>
    simp only [Value.Cat2_0, mul_at, add_at, sub_at]
    rw [col0_at, col0_at, col1_at, col1_at, col2_at, col2_at, col3_at, col3_at]
    rfl
  | ⟨1, _⟩ =>
    simp only [Value.Cat2_0, mul_at, add_at, sub_at]
    rw [col0_at, col0_at, col1_at, col1_at, col2_at, col2_at, col3_at, col3_at]
    rfl
  | ⟨2, _⟩ =>
    simp only [Value.Cat2_0, mul_at, add_at, sub_at]
    rw [col0_at, col0_at, col1_at, col1_at, col2_at, col2_at, col3_at, col3_at]
    rfl
  | ⟨3, _⟩ =>
    simp only [Value.Cat2_0, mul_at, add_at, sub_at]
    rw [col0_at, col0_at, col1_at, col1_at, col2_at, col2_at, col3_at, col3_at]
    rfl

/-- THE OUTPUT BLOCK at `(r, n)`: component `n` of the product of row `r` of the first loaded block with row `r` of
    the second. -/
theorem block_apply (P0 P1 : Vec F S1024x4 .f32) (r : Fin 1024) (n : Fin 4) :
    Value.E2 P0 P1 (ix2 r n) = comp (brow P0 r) (brow P1 r) n := by
  show Value.Cat2_0 P0 P1 n (Value.ix2_0 (ix2 r n)) = _
  rw [row_of, column_apply]

/-- The same with the two blocks' rows `r` given as row `R` of two arrays of quaternions: entry `(r, n)` of the
    output block is entry `(R, n)` of the arrays' row-wise product. -/
theorem block_apply_of_rows (q x : S8388608x4.Idx → F .f32) (P0 P1 : Vec F S1024x4 .f32) (R : Fin 8388608) (r : Fin 1024)
    (h0 : ∀ k : Fin 4, P0 (ix2 r k) = q (ix2 R k)) (h1 : ∀ k : Fin 4, P1 (ix2 r k) = x (ix2 R k)) (n : Fin 4) :
    Value.E2 P0 P1 (ix2 r n) = prod q x (ix2 R n) := by
  rw [block_apply, prod_ix2]
  have e0 : brow P0 r = row q R := funext h0
  have e1 : brow P1 r = row x R := funext h1
  rw [e0, e1]

end Cert.KernelIdeal.Hamilton

end
-- ==== Proof.Array.lean ====
/-
  The kernel's output array is the row-wise Hamilton product of its argument arrays.

  The grid has 8192 points. At point `t` each of the three windows — the two arguments and the output — holds rows
  `1024·t … 1024·t + 1023` of its array, all four columns. So entry `(r, n)` of the block a point writes back is
  entry `(1024·t + r, n)` of the output array, rows `r` of the two loaded blocks are rows `1024·t + r` of the
  arguments, and by the block's value that entry is the product's entry there. Every row `R` of the output lies in
  the block of point `R / 1024`, so the blocks cover the array and the array ends as the product everywhere.
-/
import proofs.«176889_j19670950216617_2_alg».proof.Proof.Block

noncomputable section

namespace Cert.KernelIdeal.Hamilton

open Cert.KernelIdeal Cert.KernelIdeal.Gen Idealize.ShloMosaic Idealize.ShloMosaic.TcCoe Idealize.SL.Sem
open Idealize.ShloMosaic.ValueIdx Cert.Quaternion
open Idealize.ShloMosaic.Pipeline (Dat)

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-- The three windows' block indices at every grid point, decided over the 8192 points: along the rows the
    point's own number, along the columns `0`. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0)

/-- Row `r` of point `t`'s blocks is row `1024·t + r` of the arrays. -/
def arow (t : Fin cfg0.N) (r : Fin 1024) : Fin 8388608 :=
  ⟨t.val * 1024 + r.val, by have ht : t.val < 8192 := N_0 ▸ t.isLt; have hr := r.isLt; omega⟩

/-- WHAT POINT `t` WRITES BACK is block `t` of the product of the argument arrays as the region finds them. -/
theorem flushed_eq (c : Dev nD) (t : Fin cfg0.N) :
    (dats m 0 c).flushed 2 t
      = ((cfg0.win 2).blk t).view.read (Elt F) (prod (V m c main_arg0) (V m c main_arg1)) := by
  show (cfg0.win 2).cut (grid0.coords t) ((dats m 0 c).after 2 t) = _
  rw [after0_2]
  unfold out0_2
  simp only [View.ld_unit_zero (S := S1024x4) zero_offsets]
  obtain ⟨e0, e1, e2, e3, e4, e5⟩ := block_indices t
  funext j
  obtain ⟨r, n, rfl⟩ : ∃ (r : Fin 1024) (n : Fin 4), j = ix2 r n := ⟨j 0, j 1, eq_ix2 j⟩
  show (View.canon [⟨r0_0, k0_pay1 (iblk m c 0 t) (iblk m c 1 t)⟩] : Vec F S1024x4 .f32) (ix2 r n)
    = prod (V m c main_arg0) (V m c main_arg1) (((cfg0.win 2).blk t).view.emb (ix2 r n))
  have hout : ((cfg0.win 2).blk t).view.emb (ix2 r n) = ix2 (arow t r) n := by
    funext a; apply Fin.ext
    match a with
    | ⟨0, _⟩ => show win0_2.index t (0 : Fin 2) * 1024 + 1 * r.val = t.val * 1024 + r.val; omega
    | ⟨1, _⟩ => show win0_2.index t (1 : Fin 2) * 4 + 1 * n.val = n.val; omega
  rw [hout]
  refine (Value.canon2_eq (iblk m c 0 t) (iblk m c 1 t) (ix2 r n)).trans ?_
  refine block_apply_of_rows (V m c main_arg0) (V m c main_arg1) (iblk m c 0 t) (iblk m c 1 t) (arow t r) r ?_ ?_ n
  · intro k
    show V m c main_arg0 (((cfg0.win 0).blk t).view.emb (ix2 r k)) = V m c main_arg0 (ix2 (arow t r) k)
    refine congrArg (V m c main_arg0) ?_
    funext a; apply Fin.ext
    match a with
    | ⟨0, _⟩ => show win0_0.index t (0 : Fin 2) * 1024 + 1 * r.val = t.val * 1024 + r.val; omega
    | ⟨1, _⟩ => show win0_0.index t (1 : Fin 2) * 4 + 1 * k.val = k.val; omega
  · intro k
    show V m c main_arg1 (((cfg0.win 1).blk t).view.emb (ix2 r k)) = V m c main_arg1 (ix2 (arow t r) k)
    refine congrArg (V m c main_arg1) ?_
    funext a; apply Fin.ext
    match a with
    | ⟨0, _⟩ => show win0_1.index t (0 : Fin 2) * 1024 + 1 * r.val = t.val * 1024 + r.val; omega
    | ⟨1, _⟩ => show win0_1.index t (1 : Fin 2) * 4 + 1 * k.val = k.val; omega

/-- An index of the output array is in point `t`'s block iff each coordinate is in the block's range on its axis. -/
theorem mem_block (t : Fin cfg0.N) (i : S8388608x4.Idx) :
    i ∈ ((cfg0.win 2).blk t).view.set ↔ ∀ a : Fin 2, win0_2.index t a * S1024x4.size a ≤ (i a).val ∧ (i a).val < win0_2.index t a * S1024x4.size a + S1024x4.size a := by
  show i ∈ ((View.whole main_v0).slice (win0_2.rect t)).set ↔ _
  rw [View.set_slice_whole, Rect.mem_set_unit]
  exact Iff.rfl

/-- EVERY INDEX of the output array is in some point's block: row `R` in that of point `R / 1024`. -/
theorem covered (i : S8388608x4.Idx) :
    ∃ t : Fin cfg0.N, (cfg0.win 2).flush t = true ∧ i ∈ ((cfg0.win 2).blk t).view.set := by
  have hi0 : (i 0).val < 8388608 := (i 0).isLt
  have hi1 : (i 1).val < 4 := (i 1).isLt
  have hN : cfg0.N = 8192 := N_0
  let t : Fin cfg0.N := ⟨(i 0).val / 1024, by rw [hN]; omega⟩
  obtain ⟨-, -, -, -, e4, e5⟩ := block_indices t
  have ht : t.val = (i 0).val / 1024 := rfl
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 4 ≤ (i 1).val ∧ (i 1).val < win0_2.index t (1 : Fin 2) * 4 + 4; omega

/-- THE OUTPUT ARRAY after the run is the row-wise Hamilton product of the argument arrays. -/
theorem final (c : Dev nD) :
    (dats m 0 c).arrAt 2 cfg0.N
      = prod (m ((c : Thread nD τ).loc main_arg0)) (m ((c : Thread nD τ).loc main_arg1)) :=
  (dats m 0 c).arrAt_eq_of_cover 2 (prod (V m c main_arg0) (V m c main_arg1)) (fun t _ => flushed_eq m c t) covered

/-- The kernel's run, read: every weakly fair execution terminates with the result array at the product of the
    argument arrays, the arguments unchanged. -/
theorem run : θ_run defs (onTc (τ := τ) (main (F := F))) ⟨m, fun _ => 0, ρ⟩ fun r => ∀ c : Dev nD,
      r.2.mem ((c : Thread nD τ).loc main_v0)
        = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Hamilton

end
-- ==== Proof.lean ====
/- The row-wise Hamilton product of two arrays of 8388608 quaternions: a tiled kernel against a plain reference.

   Both programs, read over the extended reals, compute for every row `r` the four components
     c₀ = a₀b₀ − a₁b₁ − a₂b₂ − a₃b₃,   c₁ = a₁b₀ + a₀b₁ − a₃b₂ + a₂b₃,
     c₂ = a₂b₀ + a₃b₁ + a₀b₂ − a₁b₃,   c₃ = a₃b₀ − a₂b₁ + a₁b₂ + a₀b₃
   of the product of row `r` of the first argument, a, with row `r` of the second, b, every sum grouped from the
   left. The kernel does so on blocks of 1024 rows, cutting each loaded block into columns and joining the four
   result columns; the reference does so on whole columns of the arrays. The groupings agree operation by
   operation, so the two results are the same term at every index and no law of arithmetic — hence nothing about
   finiteness of the inputs — is needed: `Quaternion.prod` names that term, `Reference.lean` shows the reference's
   result is it, `Block.lean` and `Array.lean` that the kernel's output array is it. The idealization rewrote
   nothing, so that the idealized kernel is the kernel's sanctioned idealization holds trivially; the three
   programs terminate without fault with their arguments unchanged by the kernels' frame runs and the
   reference's run. -/
import proofs.«176889_j19670950216617_2_alg».proof.Defs
import proofs.«176889_j19670950216617_2_alg».proof.Proof.Gen.Kernel
import proofs.«176889_j19670950216617_2_alg».proof.Proof.Gen.Kernel.Skeleton
import proofs.«176889_j19670950216617_2_alg».proof.Proof.Gen.Kernel.Launch
import proofs.«176889_j19670950216617_2_alg».proof.Proof.Gen.Kernel.Points
import proofs.«176889_j19670950216617_2_alg».proof.Proof.Gen.Kernel.Frame
import proofs.«176889_j19670950216617_2_alg».proof.Proof.Gen.KernelIdeal
import proofs.«176889_j19670950216617_2_alg».proof.Proof.Gen.KernelIdeal.Skeleton
import proofs.«176889_j19670950216617_2_alg».proof.Proof.Gen.KernelIdeal.Launch
import proofs.«176889_j19670950216617_2_alg».proof.Proof.Gen.KernelIdeal.Points
import proofs.«176889_j19670950216617_2_alg».proof.Proof.Gen.KernelIdeal.Frame
import proofs.«176889_j19670950216617_2_alg».proof.Proof.Gen.ReferenceIdeal
import proofs.«176889_j19670950216617_2_alg».proof.Proof.Gen.Pre_finite_inputs
import proofs.«176889_j19670950216617_2_alg».proof.Proof.Gen.KernelIdeal.Value
import proofs.«176889_j19670950216617_2_alg».proof.Proof.Gen.ReferenceIdeal.Run
import proofs.«176889_j19670950216617_2_alg».proof.Proof.Gen.ReferenceIdeal.Read
import proofs.«176889_j19670950216617_2_alg».proof.Proof.Reference
import proofs.«176889_j19670950216617_2_alg».proof.Proof.Array
import Idealize.ShloMosaic.Adequacy
import Idealize.ShloMosaic.Init

noncomputable section

namespace Cert.Proof

open Idealize.ShloMosaic Idealize.SL.Sem Cert.Kernel

/-- Both idealized programs end with the row-wise Hamilton product of the (agreeing) argument arrays. -/
theorem algebraic : Cert.algebraic_KernelIdeal_ReferenceIdeal := by
  intro m ρ m' ρ' _ hagree
  refine ⟨_, Cert.KernelIdeal.Hamilton.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.Hamilton.result_eq_prod, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
